-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x16 .f32) (main_arg5 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 77
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x16, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x16, .f32⟩
  | .hbm, ⟨68, _⟩ => ⟨S1700000x1, .f32⟩
  | .hbm, ⟨69, _⟩ => ⟨S1700000x16, .f32⟩
  | .hbm, ⟨70, _⟩ => ⟨S1700000x16, .f32⟩
  | .hbm, ⟨71, _⟩ => ⟨S_, .f32⟩
  | .hbm, ⟨72, _⟩ => ⟨S100000x16, .f32⟩
  | .hbm, ⟨73, _⟩ => ⟨S1700000x1, .i32⟩
  | .hbm, ⟨74, _⟩ => ⟨S100000x16, .f32⟩
  | .hbm, ⟨75, _⟩ => ⟨S1x16, .f32⟩
  | .hbm, ⟨76, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x16, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x16, .f32⟩
  | .hbm, ⟨72, _⟩ => ⟨S1700000x1, .f32⟩
  | .hbm, ⟨73, _⟩ => ⟨S1700000x16, .f32⟩
  | .hbm, ⟨74, _⟩ => ⟨S1700000x16, .f32⟩
  | .hbm, ⟨75, _⟩ => ⟨S_, .f32⟩
  | .hbm, ⟨76, _⟩ => ⟨S100000x16, .f32⟩
  | .hbm, ⟨77, _⟩ => ⟨S1700000x1, .i32⟩
  | .hbm, ⟨78, _⟩ => ⟨S100000x16, .f32⟩
  | .hbm, ⟨79, _⟩ => ⟨S1x16, .f32⟩
  | .hbm, ⟨80, _⟩ => ⟨S100000x16, .f32⟩
  | .hbm, ⟨81, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result named.

  @main is seven segments: a stretch of host operations, the first dense transform (region 0), a second stretch (the
  gather of rows along the edges, their scaling, the scatter-add into the destination rows, the bias laid as a row),
  the bias-and-ReLU pass (region 1), the second dense transform (region 2), a third stretch (the same aggregation on
  16 channels) and the last bias pass (region 3).  The contents of every buffer at each boundary are a fold from the
  launch memory; the last one is `W7`.  Every weakly fair execution terminates with every unscoped buffer at `W7`:
  here that is read at the result buffer as well as at the six arguments.
-/
import proofs.«152383_j2199023255949_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W7` and the six argument arrays as launched. -/
theorem run_named : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Whole

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.Region0.lean ====
/-
  Region 0: the first dense transform.  Grid point `t` of 20 takes rows `5000·t … 5000·t + 4999` of the
  64-channel operand and the whole 64 × 64 weight matrix, multiplies them into a zero accumulator (the change of
  float format on the way in is the identity on the extended reals), and writes the 5000 × 64 block back to the same
  rows of the result.  The blocks tile the 100000 rows, so the result ends holding, at `(r, q)`, the sum over
  `k < 64` of `operand (r, k) · weight (k, q)`.
-/
import proofs.«152383_j2199023255949_1_alg».proof.Proof.Gen.KernelIdeal.Frame
import proofs.«152383_j2199023255949_1_alg».proof.Proof.LibBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The matrix product of a 100000 × 64 array with a 64 × 64 matrix, entry by entry. -/
def dense64 (a : S100000x64.Idx → EReal) (w : S64x64.Idx → EReal) : S100000x64.Idx → EReal :=
  fun i => ∑ k : Fin 64, a (ix2 (i 0) k) * w (ix2 k (i 1))

/-- The body's stored value at `(p, q)` of a block: row `p` of the operand's block against column `q` of the weights. -/
theorem pay0_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact LibBlock.matmul_zero_ix2 dot_S5000x64_S64x64_S5000x64_1_0_0_1_n_n rfl rfl rfl rfl rfl rfl none _ _ p q

/-- The printed index maps over the grid: the operand's and the result's blocks are the `t`-th of their arrays, the
    weights' block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the whole-array product. -/
theorem flushed0 (c : Dev nD) (t : Fin cfg0.N) :
    (dat0 V c).flushed 2 t = ((cfg0.win 2).blk t).view.read (Elt Ideal)
      (dense64 (V c (Pipeline.arrRef spec0 0)) (V c (Pipeline.arrRef spec0 1))) := by
  show (cfg0.win 2).cut (grid0.coords t) ((dat0 V c).after 2 t) = _
  rw [after0_2]
  unfold out0_2
  rw [View.canon_unit_zero LibBlock.hz]
  simp only [View.ld_unit_zero (S := S5000x64) LibBlock.hz, View.ld_unit_zero (S := S64x64) LibBlock.hz]
  obtain ⟨e0, e1, e2, e3, e4, e5⟩ := idx_facts0 t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
      = dense64 (V c (Pipeline.arrRef spec0 0)) (V c (Pipeline.arrRef spec0 1)) (((cfg0.win 2).blk t).view.emb (ix2 p q))
  refine (pay0_apply (iblk0 V c 0 t) (iblk0 V c 1 t) p q).trans ?_
  unfold dense64
  refine Finset.sum_congr rfl fun k _ => congrArg₂ (· * ·) ?_ ?_
  · show V c (Pipeline.arrRef spec0 0) (((cfg0.win 0).blk t).view.emb (ix2 p k))
        = V c (Pipeline.arrRef spec0 0) (ix2 ((((cfg0.win 2).blk t).view.emb (ix2 p q)) 0) k)
    refine congrArg (V c (Pipeline.arrRef spec0 0)) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  · show V c (Pipeline.arrRef spec0 1) (((cfg0.win 1).blk t).view.emb (ix2 k q))
        = V c (Pipeline.arrRef spec0 1) (ix2 k ((((cfg0.win 2).blk t).view.emb (ix2 p q)) 1))
    refine congrArg (V c (Pipeline.arrRef spec0 1)) (funext fun a => Fin.ext ?_)
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega

/-- An index of the result is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v27).slice (win0_2.rect t)).set ↔ _
  rw [View.set_slice_whole, Rect.mem_set_unit]
  exact Iff.rfl

/-- Row `r` lies in the block of point `r / 5000`: the twenty blocks tile the array. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  obtain ⟨t, ht⟩ : ∃ t : Fin cfg0.N, t.val = (i 0).val / 5000 :=
    ⟨⟨(i 0).val / 5000, by show (i 0).val / 5000 < grid0.N; omega⟩, rfl⟩
  obtain ⟨e0, e1, e2, e3, e4, e5⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The result array after region 0, whatever the region was entered with: the product of its two operands. -/
theorem final0 (c : Dev nD) :
    (dat0 V c).arrAt 2 cfg0.N = dense64 (V c (Pipeline.arrRef spec0 0)) (V c (Pipeline.arrRef spec0 1)) :=
  (dat0 V c).arrAt_eq_of_cover 2 _ (fun t _ => flushed0 V c t) cover0

end Cert.KernelIdeal.Whole

end
-- ==== Proof.Region1.lean ====
/-
  Region 1: the bias-and-ReLU pass of the first layer.  Grid point `t` of 20 takes rows `5000·t … 5000·t + 4999` of
  the aggregated 64-channel array and the one bias row, adds the bias row to each of its rows, takes the maximum with
  zero, and writes the block back to the same rows of the result.  The blocks tile the 100000 rows, so the result ends
  holding, at `(r, q)`, `max (operand (r, q) + bias q) 0`.
-/
import proofs.«152383_j2199023255949_1_alg».proof.Proof.Gen.KernelIdeal.Frame
import proofs.«152383_j2199023255949_1_alg».proof.Proof.LibBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The bias row added to every row of a 64-channel array, then the maximum with zero. -/
def addRowRelu64 (a : S100000x64.Idx → EReal) (b : S1x64.Idx → EReal) : S100000x64.Idx → EReal :=
  fun i => max (a i + b (ix2 (0 : Fin 1) (i 1))) (Scalar.ofBits (F := Ideal) .f32 0x00000000#32)

/-- The body's stored value at `(p, q)` of a block. -/
theorem pay1_apply (x0 : Vec Ideal S5000x64 .f32) (x1 : Vec Ideal S1x64 .f32) (p : Fin 5000) (q : Fin 64) :
    k1_pay1 (F := Ideal) x0 x1 (ix2 p q)
      = max (x0 (ix2 p q) + x1 (ix2 (0 : Fin 1) q)) (Scalar.ofBits (F := Ideal) .f32 0x00000000#32) := by
  unfold k1_pay1
  rw [maximumf_apply, addf_apply, shapeCast_self, shapeCast_self, broadcast_apply]
  exact congrArg (fun z => max (x0 (ix2 p q) + z) (Scalar.ofBits (F := Ideal) .f32 0x00000000#32))
    (broadcastTo_1b_ab_apply x1 _ p q)

/-- The printed index maps over the grid: the operand's and the result's blocks are the `t`-th of their arrays, the
    bias row's block is the whole row. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of the whole-array function. -/
theorem flushed1 (c : Dev nD) (t : Fin cfg1.N) :
    (dat1 V c).flushed 2 t = ((cfg1.win 2).blk t).view.read (Elt Ideal)
      (addRowRelu64 (V c (Pipeline.arrRef spec1 0)) (V c (Pipeline.arrRef spec1 1))) := by
  show (cfg1.win 2).cut (grid1.coords t) ((dat1 V c).after 2 t) = _
  rw [after1_2]
  unfold out1_2
  rw [View.canon_unit_zero LibBlock.hz]
  simp only [View.ld_unit_zero (S := S5000x64) LibBlock.hz, View.ld_unit_zero (S := S1x64) LibBlock.hz]
  obtain ⟨e0, e1, e2, e3, e4, e5⟩ := idx_facts1 t
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (ix2 p q)
      = addRowRelu64 (V c (Pipeline.arrRef spec1 0)) (V c (Pipeline.arrRef spec1 1)) (((cfg1.win 2).blk t).view.emb (ix2 p q))
  refine (pay1_apply (iblk1 V c 0 t) (iblk1 V c 1 t) p q).trans ?_
  unfold addRowRelu64
  refine congrArg (fun z => max z (Scalar.ofBits (F := Ideal) .f32 0x00000000#32)) (congrArg₂ (· + ·) ?_ ?_)
  · show V c (Pipeline.arrRef spec1 0) (((cfg1.win 0).blk t).view.emb (ix2 p q))
        = V c (Pipeline.arrRef spec1 0) (((cfg1.win 2).blk t).view.emb (ix2 p q))
    refine congrArg (V c (Pipeline.arrRef spec1 0)) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  · show V c (Pipeline.arrRef spec1 1) (((cfg1.win 1).blk t).view.emb (ix2 (0 : Fin 1) q))
        = V c (Pipeline.arrRef spec1 1) (ix2 (0 : Fin 1) ((((cfg1.win 2).blk t).view.emb (ix2 p q)) 1))
    refine congrArg (V c (Pipeline.arrRef spec1 1)) (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega

/-- An index of the result is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v42).slice (win1_2.rect t)).set ↔ _
  rw [View.set_slice_whole, Rect.mem_set_unit]
  exact Iff.rfl

/-- Row `r` lies in the block of point `r / 5000`: the twenty blocks tile the array. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 20 := N_1
  obtain ⟨t, ht⟩ : ∃ t : Fin cfg1.N, t.val = (i 0).val / 5000 :=
    ⟨⟨(i 0).val / 5000, by show (i 0).val / 5000 < grid1.N; omega⟩, rfl⟩
  obtain ⟨e0, e1, e2, e3, e4, e5⟩ := idx_facts1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- The result array after region 1, whatever the region was entered with. -/
theorem final1 (c : Dev nD) :
    (dat1 V c).arrAt 2 cfg1.N = addRowRelu64 (V c (Pipeline.arrRef spec1 0)) (V c (Pipeline.arrRef spec1 1)) :=
  (dat1 V c).arrAt_eq_of_cover 2 _ (fun t _ => flushed1 V c t) cover1

end Cert.KernelIdeal.Whole

end
-- ==== Proof.Region2.lean ====
/-
  Region 2: the second dense transform.  Grid point `t` of 20 takes rows `5000·t … 5000·t + 4999` of the
  64-channel operand and the whole 64 × 16 weight matrix, multiplies them into a zero accumulator (the change of
  float format on the way in is the identity on the extended reals), and writes the 5000 × 16 block back to the same
  rows of the result.  The blocks tile the 100000 rows, so the result ends holding, at `(r, q)`, the sum over
  `k < 64` of `operand (r, k) · weight (k, q)`.
-/
import proofs.«152383_j2199023255949_1_alg».proof.Proof.Gen.KernelIdeal.Frame
import proofs.«152383_j2199023255949_1_alg».proof.Proof.LibBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The matrix product of a 100000 × 64 array with a 64 × 16 matrix, entry by entry. -/
def dense16 (a : S100000x64.Idx → EReal) (w : S64x16.Idx → EReal) : S100000x16.Idx → EReal :=
  fun i => ∑ k : Fin 64, a (ix2 (i 0) k) * w (ix2 k (i 1))

/-- The body's stored value at `(p, q)` of a block: row `p` of the operand's block against column `q` of the weights. -/
theorem pay2_apply (x0 : Vec Ideal S5000x64 .f32) (x1 : Vec Ideal S64x16 .f32) (p : Fin 5000) (q : Fin 16) :
    k2_pay1 (F := Ideal) x0 x1 (ix2 p q) = ∑ k : Fin 64, x0 (ix2 p k) * x1 (ix2 k q) := by
  unfold k2_pay1
  rw [shapeCast_self]
  exact LibBlock.matmul_zero_ix2 dot_S5000x64_S64x16_S5000x16_1_0_0_1_n_n rfl rfl rfl rfl rfl rfl none _ _ p q

/-- The printed index maps over the grid: the operand's and the result's blocks are the `t`-th of their arrays, the
    weights' block is the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point `t` writes back is block `t` of the whole-array product. -/
theorem flushed2 (c : Dev nD) (t : Fin cfg2.N) :
    (dat2 V c).flushed 2 t = ((cfg2.win 2).blk t).view.read (Elt Ideal)
      (dense16 (V c (Pipeline.arrRef spec2 0)) (V c (Pipeline.arrRef spec2 1))) := by
  show (cfg2.win 2).cut (grid2.coords t) ((dat2 V c).after 2 t) = _
  rw [after2_2]
  unfold out2_2
  rw [View.canon_unit_zero LibBlock.hz]
  simp only [View.ld_unit_zero (S := S5000x64) LibBlock.hz, View.ld_unit_zero (S := S64x16) LibBlock.hz]
  obtain ⟨e0, e1, e2, e3, e4, e5⟩ := idx_facts2 t
  funext j
  obtain ⟨p, q, rfl⟩ : ∃ (p : Fin 5000) (q : Fin 16), j = ix2 p q := ⟨j 0, j 1, eq_ix2 j⟩
  show k2_pay1 (F := Ideal) (iblk2 V c 0 t) (iblk2 V c 1 t) (ix2 p q)
      = dense16 (V c (Pipeline.arrRef spec2 0)) (V c (Pipeline.arrRef spec2 1)) (((cfg2.win 2).blk t).view.emb (ix2 p q))
  refine (pay2_apply (iblk2 V c 0 t) (iblk2 V c 1 t) p q).trans ?_
  unfold dense16
  refine Finset.sum_congr rfl fun k _ => congrArg₂ (· * ·) ?_ ?_
  · show V c (Pipeline.arrRef spec2 0) (((cfg2.win 0).blk t).view.emb (ix2 p k))
        = V c (Pipeline.arrRef spec2 0) (ix2 ((((cfg2.win 2).blk t).view.emb (ix2 p q)) 0) k)
    refine congrArg (V c (Pipeline.arrRef spec2 0)) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  · show V c (Pipeline.arrRef spec2 1) (((cfg2.win 1).blk t).view.emb (ix2 k q))
        = V c (Pipeline.arrRef spec2 1) (ix2 k ((((cfg2.win 2).blk t).view.emb (ix2 p q)) 1))
    refine congrArg (V c (Pipeline.arrRef spec2 1)) (funext fun a => Fin.ext ?_)
    match a with
    | ⟨0, _⟩ => show win2_1.index t (0 : Fin 2) * 64 + 1 * k.val = k.val; omega
    | ⟨1, _⟩ => show win2_1.index t (1 : Fin 2) * 16 + 1 * q.val = win2_2.index t (1 : Fin 2) * 16 + 1 * q.val; omega

/-- An index of the result is in point `t`'s block iff each coordinate is in the block's range on its axis. -/
theorem mem_blk2 (t : Fin cfg2.N) (i : S100000x16.Idx) :
    i ∈ ((cfg2.win 2).blk t).view.set ↔ ∀ a : Fin 2, win2_2.index t a * S5000x16.size a ≤ (i a).val
      ∧ (i a).val < win2_2.index t a * S5000x16.size a + S5000x16.size a := by
  show i ∈ ((View.whole main_v43).slice (win2_2.rect t)).set ↔ _
  rw [View.set_slice_whole, Rect.mem_set_unit]
  exact Iff.rfl

/-- Row `r` lies in the block of point `r / 5000`: the twenty blocks tile the array. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : grid2.N = 20 := N_2
  obtain ⟨t, ht⟩ : ∃ t : Fin cfg2.N, t.val = (i 0).val / 5000 :=
    ⟨⟨(i 0).val / 5000, by show (i 0).val / 5000 < grid2.N; omega⟩, rfl⟩
  obtain ⟨e0, e1, e2, e3, e4, e5⟩ := idx_facts2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 16 ≤ (i 1).val ∧ (i 1).val < win2_2.index t (1 : Fin 2) * 16 + 16
    omega

/-- The result array after region 2, whatever the region was entered with: the product of its two operands. -/
theorem final2 (c : Dev nD) :
    (dat2 V c).arrAt 2 cfg2.N = dense16 (V c (Pipeline.arrRef spec2 0)) (V c (Pipeline.arrRef spec2 1)) :=
  (dat2 V c).arrAt_eq_of_cover 2 _ (fun t _ => flushed2 V c t) cover2

end Cert.KernelIdeal.Whole

end
-- ==== Proof.Region3.lean ====
/-
  Region 3: the last bias pass.  Grid point `t` of 20 takes rows `5000·t … 5000·t + 4999` of the aggregated
  16-channel array and the one bias row, adds the bias row to each of its rows, and writes the block back to the same
  rows of the result.  The blocks tile the 100000 rows, so the result array ends holding, at `(r, q)`, the operand's
  entry `(r, q)` plus the bias row's entry `q`.
-/
import proofs.«152383_j2199023255949_1_alg».proof.Proof.Gen.KernelIdeal.Frame
import proofs.«152383_j2199023255949_1_alg».proof.Proof.LibBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The bias row added to every row of a 16-channel array. -/
def addRow16 (a : S100000x16.Idx → EReal) (b : S1x16.Idx → EReal) : S100000x16.Idx → EReal :=
  fun i => a i + b (ix2 (0 : Fin 1) (i 1))

/-- The body's stored value at `(p, q)` of a block: the block's entry plus the bias row's entry `q`. -/
theorem pay3_apply (x0 : Vec Ideal S5000x16 .f32) (x1 : Vec Ideal S1x16 .f32) (p : Fin 5000) (q : Fin 16) :
    k3_pay1 (F := Ideal) x0 x1 (ix2 p q) = x0 (ix2 p q) + x1 (ix2 (0 : Fin 1) q) := by
  unfold k3_pay1
  rw [addf_apply, shapeCast_self, shapeCast_self]
  exact congrArg (x0 (ix2 p q) + ·) (broadcastTo_1b_ab_apply x1 _ p q)

/-- The printed index maps over the grid: the operand's and the result's blocks are the `t`-th of their arrays, the
    bias row's block is the whole row. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point `t` writes back is block `t` of the whole-array sum. -/
theorem flushed3 (c : Dev nD) (t : Fin cfg3.N) :
    (dat3 V c).flushed 2 t = ((cfg3.win 2).blk t).view.read (Elt Ideal)
      (addRow16 (V c (Pipeline.arrRef spec3 0)) (V c (Pipeline.arrRef spec3 1))) := by
  show (cfg3.win 2).cut (grid3.coords t) ((dat3 V c).after 2 t) = _
  rw [after3_2]
  unfold out3_2
  rw [View.canon_unit_zero LibBlock.hz]
  simp only [View.ld_unit_zero (S := S5000x16) LibBlock.hz, View.ld_unit_zero (S := S1x16) LibBlock.hz]
  obtain ⟨e0, e1, e2, e3, e4, e5⟩ := idx_facts3 t
  funext j
  obtain ⟨p, q, rfl⟩ : ∃ (p : Fin 5000) (q : Fin 16), j = ix2 p q := ⟨j 0, j 1, eq_ix2 j⟩
  show k3_pay1 (F := Ideal) (iblk3 V c 0 t) (iblk3 V c 1 t) (ix2 p q)
      = addRow16 (V c (Pipeline.arrRef spec3 0)) (V c (Pipeline.arrRef spec3 1)) (((cfg3.win 2).blk t).view.emb (ix2 p q))
  refine (pay3_apply (iblk3 V c 0 t) (iblk3 V c 1 t) p q).trans ?_
  unfold addRow16
  refine congrArg₂ (· + ·) ?_ ?_
  · show V c (Pipeline.arrRef spec3 0) (((cfg3.win 0).blk t).view.emb (ix2 p q))
        = V c (Pipeline.arrRef spec3 0) (((cfg3.win 2).blk t).view.emb (ix2 p q))
    refine congrArg (V c (Pipeline.arrRef spec3 0)) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 16 + 1 * q.val = win3_2.index t (1 : Fin 2) * 16 + 1 * q.val; omega
  · show V c (Pipeline.arrRef spec3 1) (((cfg3.win 1).blk t).view.emb (ix2 (0 : Fin 1) q))
        = V c (Pipeline.arrRef spec3 1) (ix2 (0 : Fin 1) ((((cfg3.win 2).blk t).view.emb (ix2 p q)) 1))
    refine congrArg (V c (Pipeline.arrRef spec3 1)) (funext fun a => Fin.ext ?_)
    match a with
    | ⟨0, _⟩ => show win3_1.index t (0 : Fin 2) * 1 + 1 * 0 = 0; omega
    | ⟨1, _⟩ => show win3_1.index t (1 : Fin 2) * 16 + 1 * q.val = win3_2.index t (1 : Fin 2) * 16 + 1 * q.val; omega

/-- An index of the result is in point `t`'s block iff each coordinate is in the block's range on its axis. -/
theorem mem_blk3 (t : Fin cfg3.N) (i : S100000x16.Idx) :
    i ∈ ((cfg3.win 2).blk t).view.set ↔ ∀ a : Fin 2, win3_2.index t a * S5000x16.size a ≤ (i a).val
      ∧ (i a).val < win3_2.index t a * S5000x16.size a + S5000x16.size a := by
  show i ∈ ((View.whole main_v58).slice (win3_2.rect t)).set ↔ _
  rw [View.set_slice_whole, Rect.mem_set_unit]
  exact Iff.rfl

/-- Row `r` lies in the block of point `r / 5000`: the twenty blocks tile the array. -/
theorem cover3 (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hN : grid3.N = 20 := N_3
  obtain ⟨t, ht⟩ : ∃ t : Fin cfg3.N, t.val = (i 0).val / 5000 :=
    ⟨⟨(i 0).val / 5000, by show (i 0).val / 5000 < grid3.N; omega⟩, rfl⟩
  obtain ⟨e0, e1, e2, e3, e4, e5⟩ := idx_facts3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 16 ≤ (i 1).val ∧ (i 1).val < win3_2.index t (1 : Fin 2) * 16 + 16
    omega

/-- The result array after region 3, whatever the region was entered with: its first operand plus the bias row. -/
theorem final3 (c : Dev nD) :
    (dat3 V c).arrAt 2 cfg3.N = addRow16 (V c (Pipeline.arrRef spec3 0)) (V c (Pipeline.arrRef spec3 1)) :=
  (dat3 V c).arrAt_eq_of_cover 2 _ (fun t _ => flushed3 V c t) cover3

end Cert.KernelIdeal.Whole

end
-- ==== Proof.LibHostProduct.lean ====
/-
  The host's matrix product read at an index, and two small reads of host broadcasts.

  * `dotGeneral_ix2`: the host's plain product `[M, K] × [K, N]`, read at `(p, q)`, is the sum over the contracted
    coordinate `k : Fin K` of `lhs (p, k) * rhs (k, q)` on the extended reals (any extents, any float formats);
  * `bias_row_apply`: a length-`n` vector laid as a `1 × n` row and spread over `a` rows reads at `(r, k)` its entry `k`;
  * `splat_apply`: a rank-0 constant spread over any shape reads at every index the constant's value.
-/
import Idealize.ShloMosaic.Lib.Pipeline.Value
import Idealize.ShloMosaic.Lib.ValueIdx
import Idealize.ShloMosaic.PureOps.Ideal.Laws
import proofs.«152383_j2199023255949_1_alg».proof.Proof.LibBlock

noncomputable section

open scoped BigOperators

namespace Cert.LibHostProduct

open Idealize.ShloMosaic Idealize.ShloMosaic.ValueIdx

section Product
variable {M K N : Nat} (D : DotDims ⟨2, ![M, K]⟩ ⟨2, ![K, N]⟩ ⟨2, ![M, N]⟩)

/-- The host's plain product `[M, K] × [K, N]` read at `(p, q)`: `∑ₖ lhs (p, k) * rhs (k, q)`. -/
theorem dotGeneral_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.dotGeneral_apply D prec .single lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact LibBlock.lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact LibBlock.rhsIdx_val_col D hlb hln hrb hrn _ _)
  rw [el, er]

end Product

/-- A length-`n` vector laid as a `1 × n` row, then spread over `a` rows, read at `(r, k)`: entry `k`. -/
theorem bias_row_apply {α : Type} {a n : Nat} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (r : Fin a) (k : Fin n) :
    broadcastInDim ⟨2, ![a, n]⟩ ![0, 1] h2 (broadcastInDim ⟨2, ![1, n]⟩ ![1] h1 b) (ix2 r k) = b (ix1 k) := by
  refine (broadcastInDim_apply _ h2 _ (ix2 r k) (ix2 (0 : Fin 1) k) fun ax => ?_).trans ?_
  · match ax with
    | ⟨0, _⟩ => rfl
    | ⟨1, _⟩ =>
      show k.val = if n = 1 then 0 else k.val
      split
      · have := k.isLt; omega
      · rfl
  · refine broadcastInDim_apply _ h1 b (ix2 (0 : Fin 1) k) (ix1 k) fun ax => ?_
    match ax with
    | ⟨0, _⟩ =>
      show k.val = if n = 1 then 0 else k.val
      split
      · have := k.isLt; omega
      · rfl

/-- A rank-0 value spread over any shape reads at every index that value. -/
theorem splat_apply {α : Type} {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

end Cert.LibHostProduct

end
-- ==== Proof.Bridge.lean ====
/-
  The reference's operations against the kernel's regions, and one layer's aggregation as a closed function.

  Both programs prepare the edges in the same way (self loops appended, degrees by a scatter-add of ones, their inverse
  square roots gathered at both ends of every edge and multiplied) and aggregate in the same way (rows gathered along
  the edges, scaled by the edge's coefficient, scatter-added into the destination rows).  That aggregation is named
  here as ONE function of the transformed features and the edge data and never opened.  What differs is only where
  the dense work is done, and there the two sides are equal on the extended reals:
  * the host's product `[100000, 64] × [64, C]` is, entry by entry, the sum over `k` of `a (r, k) · w (k, q)` — what
    the dense regions leave (`C = 64` and `C = 16`);
  * the bias laid as a `1 × C` row and spread over the rows, added, is the bias row's entry `q` added at `(r, q)` —
    what the bias regions leave, their bias row being the reshaped bias;
  * `relu` is the maximum with the zero splat.
-/
import proofs.«152383_j2199023255949_1_alg».proof.Proof.Region0
import proofs.«152383_j2199023255949_1_alg».proof.Proof.Region1
import proofs.«152383_j2199023255949_1_alg».proof.Proof.Region2
import proofs.«152383_j2199023255949_1_alg».proof.Proof.Region3
import proofs.«152383_j2199023255949_1_alg».proof.Proof.Gen.ReferenceIdeal.Read
import proofs.«152383_j2199023255949_1_alg».proof.Proof.LibHostProduct

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The first layer's aggregation: the rows of `h` gathered at the edges' sources (a negative index wrapped by the
    number of nodes), each scaled by its edge's coefficient, scatter-added at the edges' destinations into zeros. -/
def agg64 (h : (⟨S100000x64, .f32⟩ : BufTy).Contents (Elt F)) (src dst : (⟨S1700000, .i32⟩ : BufTy).Contents (Elt F))
    (nrm : (⟨S1700000, .f32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf (Host.gather gather_S100000x64_S1700000x1_S1700000x64_1_0_n_n_0_1_164 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x64 ![0, 1] bcast_S1700000x1_S1700000x64_0_1
        (broadcastInDim S1700000x1 ![0] bcast_S1700000_S1700000x1_0 nrm)))

/-- The second layer's aggregation: the same on 16 channels. -/
def agg16 (h : (⟨S100000x16, .f32⟩ : BufTy).Contents (Elt F)) (src dst : (⟨S1700000, .i32⟩ : BufTy).Contents (Elt F))
    (nrm : (⟨S1700000, .f32⟩ : BufTy).Contents (Elt F)) : (⟨S100000x16, .f32⟩ : BufTy).Contents (Elt F) :=
  Host.scatterAdd scatter_S100000x16_S1700000x1_S1700000x16_1_0_0_1
    (broadcastInDim S100000x16 ![] bcast_S_S100000x16 (constant S_ .f32 0x00000000#32))
    (broadcastInDim S1700000x1 ![0] bcast_S1700000_S1700000x1_0 dst)
    (mulf (Host.gather gather_S100000x16_S1700000x1_S1700000x16_1_0_n_n_0_1_116 h
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)))
      (broadcastInDim S1700000x16 ![0, 1] bcast_S1700000x1_S1700000x16_0_1
        (broadcastInDim S1700000x1 ![0] bcast_S1700000_S1700000x1_0 nrm)))

/-- The reference's first aggregated array is `agg64` of its first product and its edge data. -/
theorem v40_eq (x0 : (⟨S100000x64, .f32⟩ : BufTy).Contents (Elt F)) (x1 : (⟨S2x1600000, .i32⟩ : BufTy).Contents (Elt F))
    (x2 : (⟨S64x64, .f32⟩ : BufTy).Contents (Elt F)) :
    val_main_v40 (F := F) x0 x1 x2
      = agg64 (val_main_v27 (F := F) x0 x2) (val_main_v3 (F := F) x1) (val_main_v6 (F := F) x1) (val_main_v26 (F := F) x1) := rfl

/-- The reference's second aggregated array is `agg16` of its second product and the same edge data. -/
theorem v58_eq (x0 : (⟨S100000x64, .f32⟩ : BufTy).Contents (Elt F)) (x1 : (⟨S2x1600000, .i32⟩ : BufTy).Contents (Elt F))
    (x2 : (⟨S64x64, .f32⟩ : BufTy).Contents (Elt F)) (x3 : (⟨S64, .f32⟩ : BufTy).Contents (Elt F))
    (x4 : (⟨S64x16, .f32⟩ : BufTy).Contents (Elt F)) :
    val_main_v58 (F := F) x0 x1 x2 x3 x4
      = agg16 (val_main_v45 (F := F) x0 x1 x2 x3 x4) (val_main_v3 (F := F) x1) (val_main_v6 (F := F) x1) (val_main_v26 (F := F) x1) := rfl

end Cert.ReferenceIdeal.RefValue

namespace Cert.Bridge

open Idealize.ShloMosaic Idealize.ShloMosaic.ValueIdx Cert.KernelIdeal.Whole Cert.ReferenceIdeal.Read

/-- The host's product with the 64 × 64 weights is the first dense region's whole-array function. -/
theorem dense64_eq (a : FVec Ideal Cert.ReferenceIdeal.S100000x64 .f32) (w : FVec Ideal Cert.ReferenceIdeal.S64x64 .f32) :
    Host.dotGeneral (F := Ideal) Cert.ReferenceIdeal.dot_S100000x64_S64x64_S100000x64_1_0_0_1_n_n none a w = dense64 a w := by
  funext i
  obtain ⟨p, q, rfl⟩ : ∃ (p : Fin 100000) (q : Fin 64), i = ix2 p q := ⟨i 0, i 1, eq_ix2 i⟩
  exact Cert.LibHostProduct.dotGeneral_ix2 _ rfl rfl rfl rfl rfl rfl none a w p q

/-- The host's product with the 64 × 16 weights is the second dense region's whole-array function. -/
theorem dense16_eq (a : FVec Ideal Cert.ReferenceIdeal.S100000x64 .f32) (w : FVec Ideal Cert.ReferenceIdeal.S64x16 .f32) :
    Host.dotGeneral (F := Ideal) Cert.ReferenceIdeal.dot_S100000x64_S64x16_S100000x16_1_0_0_1_n_n none a w = dense16 a w := by
  funext i
  obtain ⟨p, q, rfl⟩ : ∃ (p : Fin 100000) (q : Fin 16), i = ix2 p q := ⟨i 0, i 1, eq_ix2 i⟩
  exact Cert.LibHostProduct.dotGeneral_ix2 _ rfl rfl rfl rfl rfl rfl none a w p q

/-- The reference's bias add and `relu` on 64 channels is the first bias region's function of the reshaped bias. -/
theorem relu64_eq (a : FVec Ideal Cert.ReferenceIdeal.S100000x64 .f32) (x3 : FVec Ideal Cert.ReferenceIdeal.S64 .f32)
    (h : Cert.KernelIdeal.S64.ShapeCasts Cert.KernelIdeal.S1x64) :
    maximumf (addf a (val_main_v42 (F := Ideal) x3)) (val_main_call0_v0 (F := Ideal))
      = addRowRelu64 a (shapeCast Cert.KernelIdeal.S1x64 x3 h) := by
  funext i
  obtain ⟨p, q, rfl⟩ : ∃ (p : Fin 100000) (q : Fin 64), i = ix2 p q := ⟨i 0, i 1, eq_ix2 i⟩
  have e1 : val_main_v42 (F := Ideal) x3 (ix2 p q) = x3 (ix1 q) := by
    unfold val_main_v42 val_main_v41
    exact Cert.LibHostProduct.bias_row_apply x3 _ _ p q
  have e2 : shapeCast Cert.KernelIdeal.S1x64 x3 h (ix2 (0 : Fin 1) q) = x3 (ix1 q) := shapeCast_a_1a_apply x3 h 0 q
  have e3 : val_main_call0_v0 (F := Ideal) (ix2 p q) = Scalar.ofBits (F := Ideal) .f32 0x00000000#32 := by
    unfold val_main_call0_v0 val_main_call0_cst
    exact (Cert.LibHostProduct.splat_apply _ _ _).trans rfl
  rw [maximumf_apply, addf_apply, e1, e3]
  unfold addRowRelu64
  exact congrArg (fun z => max (a (ix2 p q) + z) (Scalar.ofBits (F := Ideal) .f32 0x00000000#32)) e2.symm

/-- The reference's last bias add is the last bias region's function of the reshaped bias. -/
theorem bias16_eq (a : FVec Ideal Cert.ReferenceIdeal.S100000x16 .f32) (x5 : FVec Ideal Cert.ReferenceIdeal.S16 .f32)
    (h : Cert.KernelIdeal.S16.ShapeCasts Cert.KernelIdeal.S1x16) :
    addf a (val_main_v60 (F := Ideal) x5) = addRow16 a (shapeCast Cert.KernelIdeal.S1x16 x5 h) := by
  funext i
  obtain ⟨p, q, rfl⟩ : ∃ (p : Fin 100000) (q : Fin 16), i = ix2 p q := ⟨i 0, i 1, eq_ix2 i⟩
  have e1 : val_main_v60 (F := Ideal) x5 (ix2 p q) = x5 (ix1 q) := by
    unfold val_main_v60 val_main_v59
    exact Cert.LibHostProduct.bias_row_apply x5 _ _ p q
  have e2 : shapeCast Cert.KernelIdeal.S1x16 x5 h (ix2 (0 : Fin 1) q) = x5 (ix1 q) := shapeCast_a_1a_apply x5 h 0 q
  rw [addf_apply, e1]
  unfold addRow16
  exact congrArg (fun z => a (ix2 p q) + z) e2.symm

/-- The reference's result, as the regions' whole-array functions composed with the two aggregations. -/
theorem spec_eq (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x16, .f32⟩ : BufTy).Contents (Elt Ideal))
    (x5 : (⟨Cert.ReferenceIdeal.S16, .f32⟩ : BufTy).Contents (Elt Ideal))
    (h3 : Cert.KernelIdeal.S64.ShapeCasts Cert.KernelIdeal.S1x64) (h5 : Cert.KernelIdeal.S16.ShapeCasts Cert.KernelIdeal.S1x16) :
    val_main_v61 (F := Ideal) x0 x1 x2 x3 x4 x5
      = addRow16
          (Cert.ReferenceIdeal.RefValue.agg16 (F := Ideal)
            (dense16
              (addRowRelu64
                (Cert.ReferenceIdeal.RefValue.agg64 (F := Ideal) (dense64 x0 x2)
                  (val_main_v3 (F := Ideal) x1) (val_main_v6 (F := Ideal) x1) (val_main_v26 (F := Ideal) x1))
                (shapeCast Cert.KernelIdeal.S1x64 x3 h3))
              x4)
            (val_main_v3 (F := Ideal) x1) (val_main_v6 (F := Ideal) x1) (val_main_v26 (F := Ideal) x1))
          (shapeCast Cert.KernelIdeal.S1x16 x5 h5) := by
  unfold val_main_v61
  rw [bias16_eq _ x5 h5, Cert.ReferenceIdeal.RefValue.v58_eq]
  unfold val_main_v45
  rw [dense16_eq]
  unfold val_main_v44 val_main_v43
  rw [relu64_eq _ x3 h3, Cert.ReferenceIdeal.RefValue.v40_eq]
  unfold val_main_v27
  rw [dense64_eq]

end Cert.Bridge

end
-- ==== Proof.Chain.lean ====
/-
  The kernel's result buffer, walked back through @main.

  The last boundary's contents at the result buffer are what region 3 leaves: its operand (the second aggregation)
  plus the bias row.  The second aggregation reads what region 2 leaves (the product of region 1's result with the
  second weights) and the edge data; region 1's result is the first aggregation plus bias, clipped at zero; the first
  aggregation reads what region 0 leaves (the product of the input features with the first weights) and the same
  edge data.  The edge data (sources, destinations, coefficients) are written once, before region 0, and no later
  operation or region writes them; the arguments are never written.  Put together this is the reference's result term.
-/
import proofs.«152383_j2199023255949_1_alg».proof.Proof.Gen.KernelIdeal.Frame
import proofs.«152383_j2199023255949_1_alg».proof.Proof.Bridge
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Idealize.ShloMosaic.StableHlo
open Cert.KernelIdeal Cert.KernelIdeal.Gen
open Cert.ReferenceIdeal.RefValue (agg64 agg16)
open Cert.ReferenceIdeal.Read (val_main_v3 val_main_v6 val_main_v26 val_main_v61)

variable (m : (ℓ : Loc nD τ sig) → Buf (Elt Ideal) ℓ) (ρ : Dev nD → PrngReg) (c : Dev nD)

/-! ## Before region 0: the arguments as launched, the edge data as the reference's stages of the edge list -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl

/-- The edges' sources with the self loops appended. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
/-- The edges' destinations with the self loops appended. -/
theorem W1_v6 : W1 m ρ c (Proc.devRef .tc main_v6) = val_main_v6 (F := Ideal) (m ((c : Thread nD τ).loc main_arg1)) := by
  show StableHlo.after hostOps0 (W0 m ρ c) (Proc.devRef .tc main_v6) = _
  after_results_simp <;> rfl
/-- The edges' coefficients: the inverse square roots of the degrees at both ends, multiplied. -/
theorem W1_v26 : W1 m ρ c (Proc.devRef .tc main_v26) = val_main_v26 (F := Ideal) (m ((c : Thread nD τ).loc main_arg1)) := by
  show StableHlo.after hostOps0 (W0 m ρ c) (Proc.devRef .tc main_v26) = _
  after_results_simp <;> rfl

/-! ## Region 0 and the stretch after it -/

theorem W2_v3 : W2 m ρ c (Proc.devRef .tc main_v3) = val_main_v3 (F := Ideal) (m ((c : Thread nD τ).loc main_arg1)) :=
  (W2_of_ne m ρ c main_v3 (by decide)).trans (W1_v3 m ρ c)
theorem W2_v6 : W2 m ρ c (Proc.devRef .tc main_v6) = val_main_v6 (F := Ideal) (m ((c : Thread nD τ).loc main_arg1)) :=
  (W2_of_ne m ρ c main_v6 (by decide)).trans (W1_v6 m ρ c)
theorem W2_v26 : W2 m ρ c (Proc.devRef .tc main_v26) = val_main_v26 (F := Ideal) (m ((c : Thread nD τ).loc main_arg1)) :=
  (W2_of_ne m ρ c main_v26 (by decide)).trans (W1_v26 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-- Region 0 leaves the product of the input features with the first weights. -/
theorem W2_v27 : W2 m ρ c (Proc.devRef .tc main_v27)
    = dense64 (m ((c : Thread nD τ).loc main_arg0)) (m ((c : Thread nD τ).loc main_arg2)) :=
  (W2_arr m ρ c 2).trans ((final0 (V1 m ρ) c).trans (congrArg₂ dense64 (W1_arg0 m ρ c) (W1_arg2 m ρ c)))

/-- The first aggregation, as the host operations after region 0 compute it from that boundary's contents. -/
theorem W3_v40_raw : W3 m ρ c (Proc.devRef .tc main_v40)
    = agg64 (F := Ideal) (W2 m ρ c (Proc.devRef .tc main_v27)) (W2 m ρ c (Proc.devRef .tc main_v3))
        (W2 m ρ c (Proc.devRef .tc main_v6)) (W2 m ρ c (Proc.devRef .tc main_v26)) := by
  show StableHlo.after hostOps1 (W2 m ρ c) (Proc.devRef .tc main_v40) = _
  after_results_simp <;> rfl

theorem W3_v40 : W3 m ρ c (Proc.devRef .tc main_v40)
    = agg64 (F := Ideal) (dense64 (m ((c : Thread nD τ).loc main_arg0)) (m ((c : Thread nD τ).loc main_arg2)))
        (val_main_v3 (F := Ideal) (m ((c : Thread nD τ).loc main_arg1))) (val_main_v6 (F := Ideal) (m ((c : Thread nD τ).loc main_arg1)))
        (val_main_v26 (F := Ideal) (m ((c : Thread nD τ).loc main_arg1))) := by
  rw [W3_v40_raw, W2_v27, W2_v3, W2_v6, W2_v26]

/-- The first bias, reshaped to a row. -/
theorem W3_v41 : W3 m ρ c (Proc.devRef .tc main_v41) = shapeCast S1x64 (m ((c : Thread nD τ).loc main_arg3)) shapeCasts_S64_S1x64 := by
  have h : W3 m ρ c (Proc.devRef .tc main_v41) = shapeCast S1x64 (W2 m ρ c (Proc.devRef .tc main_arg3)) shapeCasts_S64_S1x64 := by
    show StableHlo.after hostOps1 (W2 m ρ c) (Proc.devRef .tc main_v41) = _
    after_results_simp <;> rfl
  rw [h, W2_arg3]

theorem W3_arg4 : W3 m ρ c (Proc.devRef .tc main_arg4) = m ((c : Thread nD τ).loc main_arg4) := by
  have h : W3 m ρ c (Proc.devRef .tc main_arg4) = W2 m ρ c (Proc.devRef .tc main_arg4) := by
    show StableHlo.after hostOps1 (W2 m ρ c) (Proc.devRef .tc main_arg4) = _
    after_results_simp <;> rfl
  rw [h, W2_arg4]
theorem W3_arg5 : W3 m ρ c (Proc.devRef .tc main_arg5) = m ((c : Thread nD τ).loc main_arg5) := by
  have h : W3 m ρ c (Proc.devRef .tc main_arg5) = W2 m ρ c (Proc.devRef .tc main_arg5) := by
    show StableHlo.after hostOps1 (W2 m ρ c) (Proc.devRef .tc main_arg5) = _
    after_results_simp <;> rfl
  rw [h, W2_arg5]
theorem W3_v3 : W3 m ρ c (Proc.devRef .tc main_v3) = val_main_v3 (F := Ideal) (m ((c : Thread nD τ).loc main_arg1)) := by
  have h : W3 m ρ c (Proc.devRef .tc main_v3) = W2 m ρ c (Proc.devRef .tc main_v3) := by
    show StableHlo.after hostOps1 (W2 m ρ c) (Proc.devRef .tc main_v3) = _
    after_results_simp <;> rfl
  rw [h, W2_v3]
theorem W3_v6 : W3 m ρ c (Proc.devRef .tc main_v6) = val_main_v6 (F := Ideal) (m ((c : Thread nD τ).loc main_arg1)) := by
  have h : W3 m ρ c (Proc.devRef .tc main_v6) = W2 m ρ c (Proc.devRef .tc main_v6) := by
    show StableHlo.after hostOps1 (W2 m ρ c) (Proc.devRef .tc main_v6) = _
    after_results_simp <;> rfl
  rw [h, W2_v6]
theorem W3_v26 : W3 m ρ c (Proc.devRef .tc main_v26) = val_main_v26 (F := Ideal) (m ((c : Thread nD τ).loc main_arg1)) := by
  have h : W3 m ρ c (Proc.devRef .tc main_v26) = W2 m ρ c (Proc.devRef .tc main_v26) := by
    show StableHlo.after hostOps1 (W2 m ρ c) (Proc.devRef .tc main_v26) = _
    after_results_simp <;> rfl
  rw [h, W2_v26]

/-! ## Regions 1 and 2 -/

/-- Region 1 leaves the first aggregation plus the bias row, clipped at zero. -/
theorem W4_v42 : W4 m ρ c (Proc.devRef .tc main_v42)
    = addRowRelu64
        (agg64 (F := Ideal) (dense64 (m ((c : Thread nD τ).loc main_arg0)) (m ((c : Thread nD τ).loc main_arg2)))
          (val_main_v3 (F := Ideal) (m ((c : Thread nD τ).loc main_arg1))) (val_main_v6 (F := Ideal) (m ((c : Thread nD τ).loc main_arg1)))
          (val_main_v26 (F := Ideal) (m ((c : Thread nD τ).loc main_arg1))))
        (shapeCast S1x64 (m ((c : Thread nD τ).loc main_arg3)) shapeCasts_S64_S1x64) :=
  (W4_arr m ρ c 2).trans ((final1 (V3 m ρ) c).trans (congrArg₂ addRowRelu64 (W3_v40 m ρ c) (W3_v41 m ρ c)))

theorem W4_arg4 : W4 m ρ c (Proc.devRef .tc main_arg4) = m ((c : Thread nD τ).loc main_arg4) :=
  (W4_of_ne m ρ c main_arg4 (by decide)).trans (W3_arg4 m ρ c)

/-- Region 2 leaves the product of region 1's result with the second weights. -/
theorem W5_v43 : W5 m ρ c (Proc.devRef .tc main_v43)
    = dense16
        (addRowRelu64
          (agg64 (F := Ideal) (dense64 (m ((c : Thread nD τ).loc main_arg0)) (m ((c : Thread nD τ).loc main_arg2)))
            (val_main_v3 (F := Ideal) (m ((c : Thread nD τ).loc main_arg1))) (val_main_v6 (F := Ideal) (m ((c : Thread nD τ).loc main_arg1)))
            (val_main_v26 (F := Ideal) (m ((c : Thread nD τ).loc main_arg1))))
          (shapeCast S1x64 (m ((c : Thread nD τ).loc main_arg3)) shapeCasts_S64_S1x64))
        (m ((c : Thread nD τ).loc main_arg4)) :=
  (W5_arr m ρ c 2).trans ((final2 (V4 m ρ) c).trans (congrArg₂ dense16 (W4_v42 m ρ c) (W4_arg4 m ρ c)))

theorem W5_v3 : W5 m ρ c (Proc.devRef .tc main_v3) = val_main_v3 (F := Ideal) (m ((c : Thread nD τ).loc main_arg1)) :=
  (W5_of_ne m ρ c main_v3 (by decide)).trans ((W4_of_ne m ρ c main_v3 (by decide)).trans (W3_v3 m ρ c))
theorem W5_v6 : W5 m ρ c (Proc.devRef .tc main_v6) = val_main_v6 (F := Ideal) (m ((c : Thread nD τ).loc main_arg1)) :=
  (W5_of_ne m ρ c main_v6 (by decide)).trans ((W4_of_ne m ρ c main_v6 (by decide)).trans (W3_v6 m ρ c))
theorem W5_v26 : W5 m ρ c (Proc.devRef .tc main_v26) = val_main_v26 (F := Ideal) (m ((c : Thread nD τ).loc main_arg1)) :=
  (W5_of_ne m ρ c main_v26 (by decide)).trans ((W4_of_ne m ρ c main_v26 (by decide)).trans (W3_v26 m ρ c))
theorem W5_arg5 : W5 m ρ c (Proc.devRef .tc main_arg5) = m ((c : Thread nD τ).loc main_arg5) :=
  (W5_of_ne m ρ c main_arg5 (by decide)).trans ((W4_of_ne m ρ c main_arg5 (by decide)).trans (W3_arg5 m ρ c))

/-! ## The stretch after region 2, and region 3 -/

/-- The second aggregation, as the host operations after region 2 compute it from that boundary's contents. -/
theorem W6_v56_raw : W6 m ρ c (Proc.devRef .tc main_v56)
    = agg16 (F := Ideal) (W5 m ρ c (Proc.devRef .tc main_v43)) (W5 m ρ c (Proc.devRef .tc main_v3))
        (W5 m ρ c (Proc.devRef .tc main_v6)) (W5 m ρ c (Proc.devRef .tc main_v26)) := by
  show StableHlo.after hostOps3 (W5 m ρ c) (Proc.devRef .tc main_v56) = _
  after_results_simp <;> rfl

/-- The second bias, reshaped to a row. -/
theorem W6_v57 : W6 m ρ c (Proc.devRef .tc main_v57) = shapeCast S1x16 (m ((c : Thread nD τ).loc main_arg5)) shapeCasts_S16_S1x16 := by
  have h : W6 m ρ c (Proc.devRef .tc main_v57) = shapeCast S1x16 (W5 m ρ c (Proc.devRef .tc main_arg5)) shapeCasts_S16_S1x16 := by
    show StableHlo.after hostOps3 (W5 m ρ c) (Proc.devRef .tc main_v57) = _
    after_results_simp <;> rfl
  rw [h, W5_arg5]

/-- THE KERNEL'S RESULT: the last boundary's contents at the result buffer are the reference's result term of the
    launch contents of the six arguments. -/
theorem value : W7 m ρ c (Proc.devRef .tc main_v58)
    = val_main_v61 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine ((W7_arr m ρ c 2).trans ((final3 (V6 m ρ) c).trans (congrArg₂ addRow16 (W6_v56_raw m ρ c) (W6_v57 m ρ c)))).trans ?_
  rw [W5_v43, W5_v3, W5_v6, W5_v26]
  exact (Cert.Bridge.spec_eq _ _ _ _ _ _ shapeCasts_S64_S1x64 shapeCasts_S16_S1x16).symm

end Cert.KernelIdeal.Whole

end
-- ==== Proof.lean ====
/-
  Two stacked graph-convolution layers on 100000 nodes and 1600000 edges (plus one self loop per node): in each
  layer the node features are multiplied by a weight matrix, the rows are gathered along the edges, scaled by
  `deg(src)^(-1/2) · deg(dst)^(-1/2)`, scatter-added into the destination rows, and a bias is added; the first layer
  (64 → 64 channels) ends in a ReLU, the second (64 → 16) does not.

  The kernel program does the dense work in four row-tiled regions (the two products, in blocks of 5000 rows with the
  operands rounded to bf16 on the way in; the two bias passes, the first with the maximum with zero) and leaves the
  edge preparation, the gathers and the scatter-adds to the host; the reference does everything on the host.  On the
  extended reals the rounding is the identity, a product into a zero accumulator is the same sum over `k` as the host's
  product, a bias row spread over the rows and added is the same entry-by-entry sum, and the blocks tile the rows — so
  region by region the kernel's arrays are the reference's, and the host operations between the regions are the
  reference's own, applied to equal operands.  No finiteness is used: only that sums and products are taken entry by
  entry in the same way on both sides.

  * `KernelRun.lean`  the kernel's run with its result buffer named;
  * `Region0 … Region3.lean`  what each region leaves in its output array, as one whole-array function of its operands;
  * `Bridge.lean`  one layer's aggregation as a closed function, and each reference operation against its region;
  * `Chain.lean`  the result buffer walked back through @main to the arguments: it is the reference's result term.
-/
import proofs.«152383_j2199023255949_1_alg».proof.Defs
import proofs.«152383_j2199023255949_1_alg».proof.Proof.Gen.Kernel
import proofs.«152383_j2199023255949_1_alg».proof.Proof.Gen.Kernel.Skeleton
import proofs.«152383_j2199023255949_1_alg».proof.Proof.Gen.Kernel.Launch
import proofs.«152383_j2199023255949_1_alg».proof.Proof.Gen.Kernel.Points
import proofs.«152383_j2199023255949_1_alg».proof.Proof.Gen.Kernel.Frame
import proofs.«152383_j2199023255949_1_alg».proof.Proof.Gen.KernelIdeal
import proofs.«152383_j2199023255949_1_alg».proof.Proof.Gen.KernelIdeal.Skeleton
import proofs.«152383_j2199023255949_1_alg».proof.Proof.Gen.KernelIdeal.Launch
import proofs.«152383_j2199023255949_1_alg».proof.Proof.Gen.KernelIdeal.Points
import proofs.«152383_j2199023255949_1_alg».proof.Proof.Gen.KernelIdeal.Frame
import proofs.«152383_j2199023255949_1_alg».proof.Proof.Gen.ReferenceIdeal
import proofs.«152383_j2199023255949_1_alg».proof.Proof.Gen.Pre_finite_inputs
import proofs.«152383_j2199023255949_1_alg».proof.Proof.Gen.ReferenceIdeal.Run
import proofs.«152383_j2199023255949_1_alg».proof.Proof.Gen.ReferenceIdeal.Read
import proofs.«152383_j2199023255949_1_alg».proof.Proof.KernelRun
import proofs.«152383_j2199023255949_1_alg».proof.Proof.Chain
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both idealized programs end with the reference's result term of those
    arguments in their result buffers: the kernel's by the walk back through its regions, the reference's by its run. -/
theorem algebraic : Cert.algebraic_KernelIdeal_ReferenceIdeal := by
  intro m ρ m' ρ' _ hagree
  refine ⟨fun c => Cert.ReferenceIdeal.Read.val_main_v61 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.value m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
